-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x128x56x56 : Shape := ⟨4, ![16, 128, 56, 56]⟩
abbrev S16x16x9x56x56 : Shape := ⟨5, ![16, 16, 9, 56, 56]⟩
abbrev S_ : Shape := ⟨0, ![]⟩

class Facts : Prop where
  bcast_S_S16x128x56x56 : S_.BroadcastsInDim S16x128x56x56 (![] : Fin 0 → Fin S16x128x56x56.rank)
  reducesTo_S16x128x56x56_S_d0_1_2_3 : S16x128x56x56.ReducesTo [0, 1, 2, 3] S_
  h_S_ : 0 < S_.numel
  bcast_S_S16x16x9x56x56 : S_.BroadcastsInDim S16x16x9x56x56 (![] : Fin 0 → Fin S16x16x9x56x56.rank)
  reducesTo_S16x16x9x56x56_S_d0_1_2_3_4 : S16x16x9x56x56.ReducesTo [0, 1, 2, 3, 4] S_

variable [Facts]

def fn {F : FTy → Type} [FloatOps F] (main_arg0 : FVec F S16x128x56x56 .f32) (main_arg1 : FVec F S16x16x9x56x56 .f32) : IVec S_ 1 :=
  let main_v0 : FVec F S16x128x56x56 .f32 := Host.absf main_arg0
  let main_cst : FVec F S_ .f32 := constant S_ .f32 0x7F800000#32
  let main_v1 : FVec F S16x128x56x56 .f32 := broadcastInDim S16x128x56x56 ![] bcast_S_S16x128x56x56 main_cst
  let main_v2 : IVec S16x128x56x56 1 := cmpf .olt main_v0 main_v1
  let main_c : IVec S_ 1 := constantI S_ 1 1#1
  let main_v3 : IVec S_ 1 := (fun x v => Host.reduce IntOp.andi x v reducesTo_S16x128x56x56_S_d0_1_2_3 h_S_) main_v2 main_c
  let main_v4 : FVec F S16x16x9x56x56 .f32 := Host.absf main_arg1
  let main_cst_0 : FVec F S_ .f32 := constant S_ .f32 0x7F800000#32
  let main_v5 : FVec F S16x16x9x56x56 .f32 := broadcastInDim S16x16x9x56x56 ![] bcast_S_S16x16x9x56x56 main_cst_0
  let main_v6 : IVec S16x16x9x56x56 1 := cmpf .olt main_v4 main_v5
  let main_c_1 : IVec S_ 1 := constantI S_ 1 1#1
  let main_v7 : IVec S_ 1 := (fun x v => Host.reduce IntOp.andi x v reducesTo_S16x16x9x56x56_S_d0_1_2_3_4 h_S_) main_v6 main_c_1
  let main_v8 : IVec S_ 1 := andi main_v3 main_v7
  main_v8
-- ==== Kernel.lean ====
abbrev S16x128x56x56 : Shape := ⟨4, ![16, 128, 56, 56]⟩
abbrev S16x16x9x56x56 : Shape := ⟨5, ![16, 16, 9, 56, 56]⟩
abbrev S2x128x56x56 : Shape := ⟨4, ![2, 128, 56, 56]⟩
abbrev S2x16x9x56x56 : Shape := ⟨5, ![2, 16, 9, 56, 56]⟩
abbrev S2x16x56x56 : Shape := ⟨4, ![2, 16, 56, 56]⟩
abbrev S2x16x1x56 : Shape := ⟨4, ![2, 16, 1, 56]⟩
abbrev S2x16x57x56 : Shape := ⟨4, ![2, 16, 57, 56]⟩
abbrev S2x16x58x56 : Shape := ⟨4, ![2, 16, 58, 56]⟩
abbrev S2x16x58x1 : Shape := ⟨4, ![2, 16, 58, 1]⟩
abbrev S2x16x58x57 : Shape := ⟨4, ![2, 16, 58, 57]⟩
abbrev S2x16x58x58 : Shape := ⟨4, ![2, 16, 58, 58]⟩
abbrev S2x16x1x56x56 : Shape := ⟨5, ![2, 16, 1, 56, 56]⟩

abbrev nBuf : Space → Nat
  | .hbm => 3
  | .vmem => 6
  | .smem => 0
  | _ => 0

abbrev bufTy : (tb : Table) → Fin (tcTables nBuf tb) → BufTy
  | .hbm, ⟨0, _⟩ => ⟨S16x128x56x56, .f32⟩
  | .hbm, ⟨1, _⟩ => ⟨S16x16x9x56x56, .f32⟩
  | .hbm, ⟨2, _⟩ => ⟨S16x128x56x56, .f32⟩
  | .local _ .vmem, ⟨0, _⟩ => ⟨S2x128x56x56, .f32⟩
  | .local _ .vmem, ⟨1, _⟩ => ⟨S2x128x56x56, .f32⟩
  | .local _ .vmem, ⟨2, _⟩ => ⟨S2x16x9x56x56, .f32⟩
  | .local _ .vmem, ⟨3, _⟩ => ⟨S2x16x9x56x56, .f32⟩
  | .local _ .vmem, ⟨4, _⟩ => ⟨S2x128x56x56, .f32⟩
  | .local _ .vmem, ⟨5, _⟩ => ⟨S2x128x56x56, .f32⟩
  | _, _ => ⟨S16x128x56x56, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x128x56x56 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x16x9x56x56 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x128x56x56 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S2x128x56x56_S2x128x56x56_0_0_0_0 : ∀ a, (![0, 0, 0, 0] : Fin 4 → Nat) a + S2x128x56x56.size a ≤ S2x128x56x56.size a
  h_S2x128x56x56 : 0 < S2x128x56x56.numel
  inb_S2x16x9x56x56_S2x16x9x56x56_0_0_0_0_0 : ∀ a, (![0, 0, 0, 0, 0] : Fin 5 → Nat) a + S2x16x9x56x56.size a ≤ S2x16x9x56x56.size a
  h_S2x16x9x56x56 : 0 < S2x16x9x56x56.numel
  slices_S2x128x56x56_o0_0_0_0_S2x16x56x56 : S2x128x56x56.Slices ![0, 0, 0, 0] S2x16x56x56
  concatenates_S2x16x1x56_S2x16x56x56_S2x16x57x56_d2 : Shape.Concatenates [S2x16x1x56, S2x16x56x56] S2x16x57x56 2
  concatenates_S2x16x57x56_S2x16x1x56_S2x16x58x56_d2 : Shape.Concatenates [S2x16x57x56, S2x16x1x56] S2x16x58x56 2
  concatenates_S2x16x58x1_S2x16x58x56_S2x16x58x57_d3 : Shape.Concatenates [S2x16x58x1, S2x16x58x56] S2x16x58x57 3
  concatenates_S2x16x58x57_S2x16x58x1_S2x16x58x58_d3 : Shape.Concatenates [S2x16x58x57, S2x16x58x1] S2x16x58x58 3
  slices_S2x16x58x58_o0_0_0_0_S2x16x56x56 : S2x16x58x58.Slices ![0, 0, 0, 0] S2x16x56x56
  slices_S2x16x9x56x56_o0_0_0_0_0_S2x16x1x56x56 : S2x16x9x56x56.Slices ![0, 0, 0, 0, 0] S2x16x1x56x56
  shapeCasts_S2x16x1x56x56_S2x16x56x56 : S2x16x1x56x56.ShapeCasts S2x16x56x56
  slices_S2x16x58x58_o0_0_0_1_S2x16x56x56 : S2x16x58x58.Slices ![0, 0, 0, 1] S2x16x56x56
  slices_S2x16x9x56x56_o0_0_1_0_0_S2x16x1x56x56 : S2x16x9x56x56.Slices ![0, 0, 1, 0, 0] S2x16x1x56x56
  slices_S2x16x58x58_o0_0_0_2_S2x16x56x56 : S2x16x58x58.Slices ![0, 0, 0, 2] S2x16x56x56
  slices_S2x16x9x56x56_o0_0_2_0_0_S2x16x1x56x56 : S2x16x9x56x56.Slices ![0, 0, 2, 0, 0] S2x16x1x56x56
  slices_S2x16x58x58_o0_0_1_0_S2x16x56x56 : S2x16x58x58.Slices ![0, 0, 1, 0] S2x16x56x56
  slices_S2x16x9x56x56_o0_0_3_0_0_S2x16x1x56x56 : S2x16x9x56x56.Slices ![0, 0, 3, 0, 0] S2x16x1x56x56
  slices_S2x16x58x58_o0_0_1_1_S2x16x56x56 : S2x16x58x58.Slices ![0, 0, 1, 1] S2x16x56x56
  slices_S2x16x9x56x56_o0_0_4_0_0_S2x16x1x56x56 : S2x16x9x56x56.Slices ![0, 0, 4, 0, 0] S2x16x1x56x56
  slices_S2x16x58x58_o0_0_1_2_S2x16x56x56 : S2x16x58x58.Slices ![0, 0, 1, 2] S2x16x56x56
  slices_S2x16x9x56x56_o0_0_5_0_0_S2x16x1x56x56 : S2x16x9x56x56.Slices ![0, 0, 5, 0, 0] S2x16x1x56x56
  slices_S2x16x58x58_o0_0_2_0_S2x16x56x56 : S2x16x58x58.Slices ![0, 0, 2, 0] S2x16x56x56
  slices_S2x16x9x56x56_o0_0_6_0_0_S2x16x1x56x56 : S2x16x9x56x56.Slices ![0, 0, 6, 0, 0] S2x16x1x56x56
  slices_S2x16x58x58_o0_0_2_1_S2x16x56x56 : S2x16x58x58.Slices ![0, 0, 2, 1] S2x16x56x56
  slices_S2x16x9x56x56_o0_0_7_0_0_S2x16x1x56x56 : S2x16x9x56x56.Slices ![0, 0, 7, 0, 0] S2x16x1x56x56
  slices_S2x16x58x58_o0_0_2_2_S2x16x56x56 : S2x16x58x58.Slices ![0, 0, 2, 2] S2x16x56x56
  slices_S2x16x9x56x56_o0_0_8_0_0_S2x16x1x56x56 : S2x16x9x56x56.Slices ![0, 0, 8, 0, 0] S2x16x1x56x56
  slices_S2x128x56x56_o0_16_0_0_S2x16x56x56 : S2x128x56x56.Slices ![0, 16, 0, 0] S2x16x56x56
  slices_S2x128x56x56_o0_32_0_0_S2x16x56x56 : S2x128x56x56.Slices ![0, 32, 0, 0] S2x16x56x56
  slices_S2x128x56x56_o0_48_0_0_S2x16x56x56 : S2x128x56x56.Slices ![0, 48, 0, 0] S2x16x56x56
  slices_S2x128x56x56_o0_64_0_0_S2x16x56x56 : S2x128x56x56.Slices ![0, 64, 0, 0] S2x16x56x56
  slices_S2x128x56x56_o0_80_0_0_S2x16x56x56 : S2x128x56x56.Slices ![0, 80, 0, 0] S2x16x56x56
  slices_S2x128x56x56_o0_96_0_0_S2x16x56x56 : S2x128x56x56.Slices ![0, 96, 0, 0] S2x16x56x56
  slices_S2x128x56x56_o0_112_0_0_S2x16x56x56 : S2x128x56x56.Slices ![0, 112, 0, 0] S2x16x56x56
  concatenates_S2x16x56x56_S2x16x56x56_S2x16x56x56_S2x16x56x56_S2x16x56x56_S2x16x56x56_S2x16x56x56_S2x16x56x56_S2x128x56x56_d1 : Shape.Concatenates [S2x16x56x56, S2x16x56x56, S2x16x56x56, S2x16x56x56, S2x16x56x56, S2x16x56x56, S2x16x56x56, S2x16x56x56] S2x128x56x56 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x128x56x56.size a ≤ S16x128x56x56.size a
  hwx0_0 : ∀ i : grid0.Coords, EltTy.bits .f32 = 32 ∨ (Rect.block (s := S16x128x56x56) S2x128x56x56.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x16x9x56x56.size a ≤ S16x16x9x56x56.size a
  hwx0_1 : ∀ i : grid0.Coords, EltTy.bits .f32 = 32 ∨ (Rect.block (s := S16x16x9x56x56) S2x16x9x56x56.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x128x56x56.size a ≤ S16x128x56x56.size a
  hwx0_2 : ∀ i : grid0.Coords, EltTy.bits .f32 = 32 ∨ (Rect.block (s := S16x128x56x56) S2x128x56x56.size (cc0_transform_2 i) (hinb0_2 i)).WholeWords (EltTy.packing .f32)

variable [Facts₀]

abbrev win0_0 : Pipeline.Window sig grid0 :=
  Pipeline.Window.ofSpec (Memref.whole main_arg0) S2x128x56x56.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x16x9x56x56.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2x128x56x56.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x128x56x56 : Shape := ⟨4, ![16, 128, 56, 56]⟩
abbrev S16x16x9x56x56 : Shape := ⟨5, ![16, 16, 9, 56, 56]⟩
abbrev S1x16x1x16x1x9x1x56x1x56 : Shape := ⟨10, ![1, 16, 1, 16, 1, 9, 1, 56, 1, 56]⟩
abbrev S1x16x8x16x1x9x1x56x1x56 : Shape := ⟨10, ![1, 16, 8, 16, 1, 9, 1, 56, 1, 56]⟩
abbrev S16x128x9x56x56 : Shape := ⟨5, ![16, 128, 9, 56, 56]⟩
abbrev S_ : Shape := ⟨0, ![]⟩
abbrev S16x128x58x58 : Shape := ⟨4, ![16, 128, 58, 58]⟩
abbrev S16x128x1x56x56 : Shape := ⟨5, ![16, 128, 1, 56, 56]⟩

abbrev nBuf : Space → Nat
  | .hbm => 55
  | .vmem => 0
  | .smem => 0
  | _ => 0

abbrev bufTy : (tb : Table) → Fin (tcTables nBuf tb) → BufTy
  | .hbm, ⟨0, _⟩ => ⟨S16x128x56x56, .f32⟩
  | .hbm, ⟨1, _⟩ => ⟨S16x16x9x56x56, .f32⟩
  | .hbm, ⟨2, _⟩ => ⟨S1x16x1x16x1x9x1x56x1x56, .f32⟩
  | .hbm, ⟨3, _⟩ => ⟨S1x16x8x16x1x9x1x56x1x56, .f32⟩
  | .hbm, ⟨4, _⟩ => ⟨S16x128x9x56x56, .f32⟩
  | .hbm, ⟨5, _⟩ => ⟨S_, .i32⟩
  | .hbm, ⟨6, _⟩ => ⟨S_, .f32⟩
  | .hbm, ⟨7, _⟩ => ⟨S16x128x58x58, .f32⟩
  | .hbm, ⟨8, _⟩ => ⟨S_, .f32⟩
  | .hbm, ⟨9, _⟩ => ⟨S16x128x56x56, .f32⟩
  | .hbm, ⟨10, _⟩ => ⟨S16x128x56x56, .f32⟩
  | .hbm, ⟨11, _⟩ => ⟨S16x128x1x56x56, .f32⟩
  | .hbm, ⟨12, _⟩ => ⟨S16x128x56x56, .f32⟩
  | .hbm, ⟨13, _⟩ => ⟨S16x128x56x56, .f32⟩
  | .hbm, ⟨14, _⟩ => ⟨S16x128x56x56, .f32⟩
  | .hbm, ⟨15, _⟩ => ⟨S16x128x56x56, .f32⟩
  | .hbm, ⟨16, _⟩ => ⟨S16x128x1x56x56, .f32⟩
  | .hbm, ⟨17, _⟩ => ⟨S16x128x56x56, .f32⟩
  | .hbm, ⟨18, _⟩ => ⟨S16x128x56x56, .f32⟩
  | .hbm, ⟨19, _⟩ => ⟨S16x128x56x56, .f32⟩
  | .hbm, ⟨20, _⟩ => ⟨S16x128x56x56, .f32⟩
  | .hbm, ⟨21, _⟩ => ⟨S16x128x1x56x56, .f32⟩
  | .hbm, ⟨22, _⟩ => ⟨S16x128x56x56, .f32⟩
  | .hbm, ⟨23, _⟩ => ⟨S16x128x56x56, .f32⟩
  | .hbm, ⟨24, _⟩ => ⟨S16x128x56x56, .f32⟩
  | .hbm, ⟨25, _⟩ => ⟨S16x128x56x56, .f32⟩
  | .hbm, ⟨26, _⟩ => ⟨S16x128x1x56x56, .f32⟩
  | .hbm, ⟨27, _⟩ => ⟨S16x128x56x56, .f32⟩
  | .hbm, ⟨28, _⟩ => ⟨S16x128x56x56, .f32⟩
  | .hbm, ⟨29, _⟩ => ⟨S16x128x56x56, .f32⟩
  | .hbm, ⟨30, _⟩ => ⟨S16x128x56x56, .f32⟩
  | .hbm, ⟨31, _⟩ => ⟨S16x128x1x56x56, .f32⟩
  | .hbm, ⟨32, _⟩ => ⟨S16x128x56x56, .f32⟩
  | .hbm, ⟨33, _⟩ => ⟨S16x128x56x56, .f32⟩
  | .hbm, ⟨34, _⟩ => ⟨S16x128x56x56, .f32⟩
  | .hbm, ⟨35, _⟩ => ⟨S16x128x56x56, .f32⟩
  | .hbm, ⟨36, _⟩ => ⟨S16x128x1x56x56, .f32⟩
  | .hbm, ⟨37, _⟩ => ⟨S16x128x56x56, .f32⟩
  | .hbm, ⟨38, _⟩ => ⟨S16x128x56x56, .f32⟩
  | .hbm, ⟨39, _⟩ => ⟨S16x128x56x56, .f32⟩
  | .hbm, ⟨40, _⟩ => ⟨S16x128x56x56, .f32⟩
  | .hbm, ⟨41, _⟩ => ⟨S16x128x1x56x56, .f32⟩
  | .hbm, ⟨42, _⟩ => ⟨S16x128x56x56, .f32⟩
  | .hbm, ⟨43, _⟩ => ⟨S16x128x56x56, .f32⟩
  | .hbm, ⟨44, _⟩ => ⟨S16x128x56x56, .f32⟩
  | .hbm, ⟨45, _⟩ => ⟨S16x128x56x56, .f32⟩
  | .hbm, ⟨46, _⟩ => ⟨S16x128x1x56x56, .f32⟩
  | .hbm, ⟨47, _⟩ => ⟨S16x128x56x56, .f32⟩
  | .hbm, ⟨48, _⟩ => ⟨S16x128x56x56, .f32⟩
  | .hbm, ⟨49, _⟩ => ⟨S16x128x56x56, .f32⟩
  | .hbm, ⟨50, _⟩ => ⟨S16x128x56x56, .f32⟩
  | .hbm, ⟨51, _⟩ => ⟨S16x128x1x56x56, .f32⟩
  | .hbm, ⟨52, _⟩ => ⟨S16x128x56x56, .f32⟩
  | .hbm, ⟨53, _⟩ => ⟨S16x128x56x56, .f32⟩
  | .hbm, ⟨54, _⟩ => ⟨S16x128x56x56, .f32⟩
  | _, _ => ⟨S16x128x56x56, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_c : Ref sig .tc := ⟨.hbm, 5, rfl⟩
abbrev main_call0_v0 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩

abbrev nD : Nat := 1
abbrev τ : Topo := Topo.v7x

variable {F : FTy → Type} [FloatOps F]

class Facts₀ : Prop where
  shapeCasts_S16x16x9x56x56_S1x16x1x16x1x9x1x56x1x56 : S16x16x9x56x56.ShapeCasts S1x16x1x16x1x9x1x56x1x56
  bcast_S1x16x1x16x1x9x1x56x1x56_S1x16x8x16x1x9x1x56x1x56_0_1_2_3_4_5_6_7_8_9 : S1x16x1x16x1x9x1x56x1x56.BroadcastsInDim S1x16x8x16x1x9x1x56x1x56 (![0, 1, 2, 3, 4, 5, 6, 7, 8, 9] : Fin 10 → Fin S1x16x8x16x1x9x1x56x1x56.rank)
  shapeCasts_S1x16x8x16x1x9x1x56x1x56_S16x128x9x56x56 : S1x16x8x16x1x9x1x56x1x56.ShapeCasts S16x128x9x56x56
  pads_S16x128x56x56_S16x128x58x58_000_000_110_110 : S16x128x56x56.Pads (![0, 0, 1, 1] : Fin 4 → Nat) ![0, 0, 1, 1] ![0, 0, 0, 0] S16x128x58x58
  h_S_ : 0 < S_.numel
  bcast_S_S16x128x56x56 : S_.BroadcastsInDim S16x128x56x56 (![] : Fin 0 → Fin S16x128x56x56.rank)
  slices_S16x128x58x58_S16x128x56x56_0_0_0_0 : S16x128x58x58.Slices ![0, 0, 0, 0] S16x128x56x56
  slices_S16x128x9x56x56_S16x128x1x56x56_0_0_0_0_0 : S16x128x9x56x56.Slices ![0, 0, 0, 0, 0] S16x128x1x56x56
  shapeCasts_S16x128x1x56x56_S16x128x56x56 : S16x128x1x56x56.ShapeCasts S16x128x56x56
  slices_S16x128x58x58_S16x128x56x56_0_0_0_1 : S16x128x58x58.Slices ![0, 0, 0, 1] S16x128x56x56
  slices_S16x128x9x56x56_S16x128x1x56x56_0_0_1_0_0 : S16x128x9x56x56.Slices ![0, 0, 1, 0, 0] S16x128x1x56x56
  slices_S16x128x58x58_S16x128x56x56_0_0_0_2 : S16x128x58x58.Slices ![0, 0, 0, 2] S16x128x56x56
  slices_S16x128x9x56x56_S16x128x1x56x56_0_0_2_0_0 : S16x128x9x56x56.Slices ![0, 0, 2, 0, 0] S16x128x1x56x56
  slices_S16x128x58x58_S16x128x56x56_0_0_1_0 : S16x128x58x58.Slices ![0, 0, 1, 0] S16x128x56x56
  slices_S16x128x9x56x56_S16x128x1x56x56_0_0_3_0_0 : S16x128x9x56x56.Slices ![0, 0, 3, 0, 0] S16x128x1x56x56
  slices_S16x128x58x58_S16x128x56x56_0_0_1_1 : S16x128x58x58.Slices ![0, 0, 1, 1] S16x128x56x56
  slices_S16x128x9x56x56_S16x128x1x56x56_0_0_4_0_0 : S16x128x9x56x56.Slices ![0, 0, 4, 0, 0] S16x128x1x56x56
  slices_S16x128x58x58_S16x128x56x56_0_0_1_2 : S16x128x58x58.Slices ![0, 0, 1, 2] S16x128x56x56
  slices_S16x128x9x56x56_S16x128x1x56x56_0_0_5_0_0 : S16x128x9x56x56.Slices ![0, 0, 5, 0, 0] S16x128x1x56x56
  slices_S16x128x58x58_S16x128x56x56_0_0_2_0 : S16x128x58x58.Slices ![0, 0, 2, 0] S16x128x56x56
  slices_S16x128x9x56x56_S16x128x1x56x56_0_0_6_0_0 : S16x128x9x56x56.Slices ![0, 0, 6, 0, 0] S16x128x1x56x56
  slices_S16x128x58x58_S16x128x56x56_0_0_2_1 : S16x128x58x58.Slices ![0, 0, 2, 1] S16x128x56x56
  slices_S16x128x9x56x56_S16x128x1x56x56_0_0_7_0_0 : S16x128x9x56x56.Slices ![0, 0, 7, 0, 0] S16x128x1x56x56
  slices_S16x128x58x58_S16x128x56x56_0_0_2_2 : S16x128x58x58.Slices ![0, 0, 2, 2] S16x128x56x56
  slices_S16x128x9x56x56_S16x128x1x56x56_0_0_8_0_0 : S16x128x9x56x56.Slices ![0, 0, 8, 0, 0] S16x128x1x56x56

variable [Facts₀]

class Facts : Prop extends Facts₀ where

variable [Facts]
-- ==== Proof.LibTaps.lean ====
/-
  A per-pixel 3×3 filter over images of 56×56 pixels, as array programs spell it, read at one output pixel.

  An image batch has shape [B, C, 56, 56]; its zero-bordered copy has shape [B, C, 58, 58]; the weights have shape
  [B, C, 9, 56, 56], nine numbers for every pixel of every channel.  The filtered image at pixel (r, q) of channel c
  is the start value plus, for the window offsets (i, j) in row-major order, the bordered image at (i + r, j + q) times
  weight number 3 i + j of that pixel, added from left to right.  Nothing here needs the entries to be finite: the
  two programs compared add the same nine products in the same order.
-/
import Idealize.ShloMosaic.PureOps.Ideal
import Idealize.ShloMosaic.Lib.ValueIdx
import Idealize.ShloMosaic.Lib.Pipeline.Value

noncomputable section

namespace Taps

open Idealize.ShloMosaic Idealize.ShloMosaic.ValueIdx

variable {B C : Nat}

/-- A batch of B images of C channels. -/
abbrev Img (B C : Nat) : Shape := ⟨4, ![B, C, 56, 56]⟩
/-- The same with a border one pixel wide. -/
abbrev Bord (B C : Nat) : Shape := ⟨4, ![B, C, 58, 58]⟩
/-- Nine weights per pixel. -/
abbrev Wts (B C : Nat) : Shape := ⟨5, ![B, C, 9, 56, 56]⟩
/-- One of the nine, still with its axis. -/
abbrev Tap (B C : Nat) : Shape := ⟨5, ![B, C, 1, 56, 56]⟩

/-! ## The bordered image, as a function of the border value and the image -/

/-- Entry (u, v) of the bordered image: the image's entry (u − 1, v − 1) inside, the border value outside. -/
def padAt {α : Type} (z : α) (x : (Img B C).Idx → α) (b : Fin B) (c : Fin C) (u v : Nat) : α :=
  if h : (1 ≤ u ∧ u ≤ 56) ∧ (1 ≤ v ∧ v ≤ 56) then x (ix4 b c ⟨u - 1, by omega⟩ ⟨v - 1, by omega⟩) else z

/-- Nine products added from left to right onto a start value, the window offsets in row-major order. -/
def nine {α : Type} [Add α] [Mul α] (z : α) (p : Nat → Nat → α) (wt : (k : Nat) → k < 9 → α) : α :=
  z + p 0 0 * wt 0 (by omega) + p 0 1 * wt 1 (by omega) + p 0 2 * wt 2 (by omega)
    + p 1 0 * wt 3 (by omega) + p 1 1 * wt 4 (by omega) + p 1 2 * wt 5 (by omega)
    + p 2 0 * wt 6 (by omega) + p 2 1 * wt 7 (by omega) + p 2 2 * wt 8 (by omega)

/-! ## Windows and taps -/

theorem win_slices (i j : Nat) (hi : i ≤ 2) (hj : j ≤ 2) : (Bord B C).Slices ![0, 0, i, j] (Img B C) :=
  ⟨rfl, fun a => match a with
    | ⟨0, _⟩ => by show 0 + B ≤ B; omega
    | ⟨1, _⟩ => by show 0 + C ≤ C; omega
    | ⟨2, _⟩ => by show i + 56 ≤ 58; omega
    | ⟨3, _⟩ => by show j + 56 ≤ 58; omega⟩

theorem tap_slices (k : Nat) (hk : k < 9) : (Wts B C).Slices ![0, 0, k, 0, 0] (Tap B C) :=
  ⟨rfl, fun a => match a with
    | ⟨0, _⟩ => by show 0 + B ≤ B; omega
    | ⟨1, _⟩ => by show 0 + C ≤ C; omega
    | ⟨2, _⟩ => by show k + 1 ≤ 9; omega
    | ⟨3, _⟩ => by show 0 + 56 ≤ 56; omega
    | ⟨4, _⟩ => by show 0 + 56 ≤ 56; omega⟩

theorem tap_casts : (Tap B C).ShapeCasts (Img B C) := by
  show (Img B C).numel = (Tap B C).numel
  simp [Shape.numel, Fin.prod_univ_succ]

/-- The 56×56 window of the bordered image at offset (i, j), read at a pixel. -/
theorem window_apply {α : Type} (i j : Nat) (hi : i ≤ 2) (hj : j ≤ 2) (xp : (Bord B C).Idx → α)
    (h : (Bord B C).Slices ![0, 0, i, j] (Img B C)) (b : Fin B) (c : Fin C) (r q : Fin 56) :
    extractStridedSlice (Img B C) ![0, 0, i, j] xp h (ix4 b c r q)
      = xp (ix4 b c ⟨i + r.val, by omega⟩ ⟨j + q.val, by omega⟩) :=
  extractStridedSlice_apply _ xp h _ _ (fun a => match a with
    | ⟨0, _⟩ => by show b.val = 0 + b.val; omega
    | ⟨1, _⟩ => by show c.val = 0 + c.val; omega
    | ⟨2, _⟩ => by show i + r.val = i + r.val; rfl
    | ⟨3, _⟩ => by show j + q.val = j + q.val; rfl)

/-- Weight number k of every pixel, as an image, read at a pixel. -/
theorem tap_apply {α : Type} (k : Nat) (hk : k < 9) (w : (Wts B C).Idx → α)
    (h : (Wts B C).Slices ![0, 0, k, 0, 0] (Tap B C)) (h' : (Tap B C).ShapeCasts (Img B C))
    (b : Fin B) (c : Fin C) (r q : Fin 56) :
    shapeCast (Img B C) (extractStridedSlice (Tap B C) ![0, 0, k, 0, 0] w h) h' (ix4 b c r q)
      = w (ix5 b c ⟨k, hk⟩ r q) := by
  refine (shapeCast_apply _ h' (ix4 b c r q) (ix5 b c (⟨0, Nat.one_pos⟩ : Fin 1) r q) ?_).trans ?_
  · rw [Shape.rowMajor_val_five, Shape.rowMajor_val_four]
    show (((b.val * C + c.val) * 1 + 0) * 56 + r.val) * 56 + q.val = ((b.val * C + c.val) * 56 + r.val) * 56 + q.val
    omega
  · exact extractStridedSlice_apply _ w h _ _ (fun a => match a with
      | ⟨0, _⟩ => by show b.val = 0 + b.val; omega
      | ⟨1, _⟩ => by show c.val = 0 + c.val; omega
      | ⟨2, _⟩ => by show k = k + 0; omega
      | ⟨3, _⟩ => by show r.val = 0 + r.val; omega
      | ⟨4, _⟩ => by show q.val = 0 + q.val; omega)

/-- One product image: the window at (i, j) times weight number k. -/
def tapTerm (xp : FVec Ideal (Bord B C) .f32) (w : FVec Ideal (Wts B C) .f32) (i j k : Nat)
    (hi : i ≤ 2) (hj : j ≤ 2) (hk : k < 9) : FVec Ideal (Img B C) .f32 :=
  mulf (extractStridedSlice (Img B C) ![0, 0, i, j] xp (win_slices i j hi hj))
    (shapeCast (Img B C) (extractStridedSlice (Tap B C) ![0, 0, k, 0, 0] w (tap_slices k hk)) tap_casts)

theorem tapTerm_apply (xp : FVec Ideal (Bord B C) .f32) (w : FVec Ideal (Wts B C) .f32) (i j k : Nat)
    (hi : i ≤ 2) (hj : j ≤ 2) (hk : k < 9) (b : Fin B) (c : Fin C) (r q : Fin 56) :
    tapTerm xp w i j k hi hj hk (ix4 b c r q)
      = xp (ix4 b c ⟨i + r.val, by omega⟩ ⟨j + q.val, by omega⟩) * w (ix5 b c ⟨k, hk⟩ r q) := by
  unfold tapTerm
  rw [mulf_apply, window_apply i j hi hj, tap_apply k hk]

/-- The nine product images added from left to right onto a start image. -/
def acc9 (z : FVec Ideal (Img B C) .f32) (xp : FVec Ideal (Bord B C) .f32) (w : FVec Ideal (Wts B C) .f32) :
    FVec Ideal (Img B C) .f32 :=
  addf (addf (addf (addf (addf (addf (addf (addf (addf z
    (tapTerm xp w 0 0 0 (by omega) (by omega) (by omega)))
    (tapTerm xp w 0 1 1 (by omega) (by omega) (by omega)))
    (tapTerm xp w 0 2 2 (by omega) (by omega) (by omega)))
    (tapTerm xp w 1 0 3 (by omega) (by omega) (by omega)))
    (tapTerm xp w 1 1 4 (by omega) (by omega) (by omega)))
    (tapTerm xp w 1 2 5 (by omega) (by omega) (by omega)))
    (tapTerm xp w 2 0 6 (by omega) (by omega) (by omega)))
    (tapTerm xp w 2 1 7 (by omega) (by omega) (by omega)))
    (tapTerm xp w 2 2 8 (by omega) (by omega) (by omega))

/-- The filtered image at a pixel, given the bordered image's entries in that channel as a function P of the
    position. -/
theorem acc9_apply (z : FVec Ideal (Img B C) .f32) (xp : FVec Ideal (Bord B C) .f32) (w : FVec Ideal (Wts B C) .f32)
    (b : Fin B) (c : Fin C) (r q : Fin 56) (P : Nat → Nat → EReal)
    (hP : ∀ (u v : Nat) (hu : u < 58) (hv : v < 58), xp (ix4 b c ⟨u, hu⟩ ⟨v, hv⟩) = P u v) :
    acc9 z xp w (ix4 b c r q)
      = nine (z (ix4 b c r q)) (fun i j => P (i + r.val) (j + q.val)) (fun k hk => w (ix5 b c ⟨k, hk⟩ r q)) := by
  unfold acc9 nine
  simp only [addf_apply, tapTerm_apply, hP]

end Taps

end
-- ==== Proof.LibBorder.lean ====
/-
  Two ways an array program puts a one-pixel border of a constant around 56×56 images, each read at an entry.

  The first joins pieces: a row of the constant above the image, one below, then a column to the left and one to the
  right.  The second is the host's padding operation with one low and one high pad on the two pixel axes.  Both give,
  at entry (u, v) of the 58×58 result, the image's entry (u − 1, v − 1) when 1 ≤ u, v ≤ 56 and the constant otherwise.
-/
import proofs.«110206_j20581483282807_1_alg».proof.Proof.LibTaps

noncomputable section

namespace Taps

open Idealize.ShloMosaic Idealize.ShloMosaic.ValueIdx

variable {B C : Nat}

abbrev RowZ (B C : Nat) : Shape := ⟨4, ![B, C, 1, 56]⟩
abbrev Rows57 (B C : Nat) : Shape := ⟨4, ![B, C, 57, 56]⟩
abbrev Rows58 (B C : Nat) : Shape := ⟨4, ![B, C, 58, 56]⟩
abbrev ColZ (B C : Nat) : Shape := ⟨4, ![B, C, 58, 1]⟩
abbrev Cols57 (B C : Nat) : Shape := ⟨4, ![B, C, 58, 57]⟩

/-- The bordered image by joins: rows first (above, below), then columns (left, right). -/
def padded {α : Type} (z : α) (xg : (Img B C).Idx → α)
    (h1 : Shape.Concatenates [RowZ B C, Img B C] (Rows57 B C) 2)
    (h2 : Shape.Concatenates [Rows57 B C, RowZ B C] (Rows58 B C) 2)
    (h3 : Shape.Concatenates [ColZ B C, Rows58 B C] (Cols57 B C) 3)
    (h4 : Shape.Concatenates [Cols57 B C, ColZ B C] (Bord B C) 3) : (Bord B C).Idx → α :=
  concatenate (Bord B C) 3 [⟨Cols57 B C, concatenate (Cols57 B C) 3 [⟨ColZ B C, broadcast (ColZ B C) z⟩,
    ⟨Rows58 B C, concatenate (Rows58 B C) 2 [⟨Rows57 B C, concatenate (Rows57 B C) 2 [⟨RowZ B C, broadcast (RowZ B C) z⟩,
      ⟨Img B C, xg⟩] h1⟩, ⟨RowZ B C, broadcast (RowZ B C) z⟩] h2⟩] h3⟩, ⟨ColZ B C, broadcast (ColZ B C) z⟩] h4

theorem padded_apply {α : Type} (z : α) (xg : (Img B C).Idx → α)
    (h1 : Shape.Concatenates [RowZ B C, Img B C] (Rows57 B C) 2)
    (h2 : Shape.Concatenates [Rows57 B C, RowZ B C] (Rows58 B C) 2)
    (h3 : Shape.Concatenates [ColZ B C, Rows58 B C] (Cols57 B C) 3)
    (h4 : Shape.Concatenates [Cols57 B C, ColZ B C] (Bord B C) 3)
    (b : Fin B) (c : Fin C) (u v : Nat) (hu : u < 58) (hv : v < 58) :
    padded z xg h1 h2 h3 h4 (ix4 b c ⟨u, hu⟩ ⟨v, hv⟩) = padAt z xg b c u v := by
  unfold padded padAt
  by_cases hv57 : v < 57
  · -- columns 0 … 56 come from the left piece of the last join
    refine (concatenate_pair_apply_left (t := Bord B C) (s₁ := Cols57 B C) (s₂ := ColZ B C) (3 : Fin 4) _ _ h4 _ rfl (ix4 b c ⟨u, hu⟩ ⟨v, hv57⟩)
      (fun a => match a with | ⟨0, _⟩ => rfl | ⟨1, _⟩ => rfl | ⟨2, _⟩ => rfl | ⟨3, _⟩ => rfl)).trans ?_
    by_cases hv0 : v = 0
    · -- column 0 is the constant
      subst hv0
      refine (concatenate_pair_apply_left (t := Cols57 B C) (s₁ := ColZ B C) (s₂ := Rows58 B C) (3 : Fin 4) _ _ h3 _ rfl (ix4 b c ⟨u, hu⟩ ⟨0, Nat.one_pos⟩)
        (fun a => match a with | ⟨0, _⟩ => rfl | ⟨1, _⟩ => rfl | ⟨2, _⟩ => rfl | ⟨3, _⟩ => rfl)).trans ?_
      rw [dif_neg (by omega)]; rfl
    · -- columns 1 … 56 are the row-bordered image's columns 0 … 55
      refine (concatenate_pair_apply_right (t := Cols57 B C) (s₁ := ColZ B C) (s₂ := Rows58 B C) (3 : Fin 4) _ _ h3 _ rfl rfl (ix4 b c ⟨u, hu⟩ ⟨v - 1, by omega⟩)
        (fun a => match a with
          | ⟨0, _⟩ => fun _ => rfl | ⟨1, _⟩ => fun _ => rfl | ⟨2, _⟩ => fun _ => rfl
          | ⟨3, _⟩ => fun hne => absurd rfl hne)
        (by show (v - 1) + 1 = v; omega)).trans ?_
      by_cases hu57 : u < 57
      · refine (concatenate_pair_apply_left (t := Rows58 B C) (s₁ := Rows57 B C) (s₂ := RowZ B C) (2 : Fin 4) _ _ h2 _ rfl (ix4 b c ⟨u, hu57⟩ ⟨v - 1, by omega⟩)
          (fun a => match a with | ⟨0, _⟩ => rfl | ⟨1, _⟩ => rfl | ⟨2, _⟩ => rfl | ⟨3, _⟩ => rfl)).trans ?_
        by_cases hu0 : u = 0
        · subst hu0
          refine (concatenate_pair_apply_left (t := Rows57 B C) (s₁ := RowZ B C) (s₂ := Img B C) (2 : Fin 4) _ _ h1 _ rfl (ix4 b c ⟨0, Nat.one_pos⟩ ⟨v - 1, by omega⟩)
            (fun a => match a with | ⟨0, _⟩ => rfl | ⟨1, _⟩ => rfl | ⟨2, _⟩ => rfl | ⟨3, _⟩ => rfl)).trans ?_
          rw [dif_neg (by omega)]; rfl
        · refine (concatenate_pair_apply_right (t := Rows57 B C) (s₁ := RowZ B C) (s₂ := Img B C) (2 : Fin 4) _ _ h1 _ rfl rfl (ix4 b c ⟨u - 1, by omega⟩ ⟨v - 1, by omega⟩)
            (fun a => match a with
              | ⟨0, _⟩ => fun _ => rfl | ⟨1, _⟩ => fun _ => rfl | ⟨3, _⟩ => fun _ => rfl
              | ⟨2, _⟩ => fun hne => absurd rfl hne)
            (by show (u - 1) + 1 = u; omega)).trans ?_
          rw [dif_pos ⟨⟨by omega, by omega⟩, ⟨by omega, by omega⟩⟩]
      · -- row 57 is the constant
        refine (concatenate_pair_apply_right (t := Rows58 B C) (s₁ := Rows57 B C) (s₂ := RowZ B C) (2 : Fin 4) _ _ h2 _ rfl rfl (ix4 b c ⟨0, Nat.one_pos⟩ ⟨v - 1, by omega⟩)
          (fun a => match a with
            | ⟨0, _⟩ => fun _ => rfl | ⟨1, _⟩ => fun _ => rfl | ⟨3, _⟩ => fun _ => rfl
            | ⟨2, _⟩ => fun hne => absurd rfl hne)
          (by show 0 + 57 = u; omega)).trans ?_
        rw [dif_neg (by omega)]; rfl
  · -- column 57 is the constant
    refine (concatenate_pair_apply_right (t := Bord B C) (s₁ := Cols57 B C) (s₂ := ColZ B C) (3 : Fin 4) _ _ h4 _ rfl rfl (ix4 b c ⟨u, hu⟩ ⟨0, Nat.one_pos⟩)
      (fun a => match a with
        | ⟨0, _⟩ => fun _ => rfl | ⟨1, _⟩ => fun _ => rfl | ⟨2, _⟩ => fun _ => rfl
        | ⟨3, _⟩ => fun hne => absurd rfl hne)
      (by show 0 + 57 = v; omega)).trans ?_
    rw [dif_neg (by omega)]; rfl

/-- The host's padding of the two pixel axes by one on each side, read at an entry. -/
theorem hostpad_apply {α : Type} (x : (Img B C).Idx → α) {s0 : Shape} (v0 : s0.Idx → α)
    (h : (Img B C).Pads ![0, 0, 1, 1] ![0, 0, 1, 1] ![0, 0, 0, 0] (Bord B C)) (hu0 : 0 < s0.numel)
    (b : Fin B) (c : Fin C) (u v : Nat) (hu : u < 58) (hv : v < 58) :
    pad (Bord B C) ![0, 0, 1, 1] ![0, 0, 1, 1] ![0, 0, 0, 0] x v0 h hu0 (ix4 b c ⟨u, hu⟩ ⟨v, hv⟩)
      = padAt (v0 (Shape.Idx.first hu0)) x b c u v := by
  unfold pad padAt
  by_cases hc : (1 ≤ u ∧ u ≤ 56) ∧ (1 ≤ v ∧ v ≤ 56)
  · rw [dif_pos hc, dif_pos (fun a => match a with
      | ⟨0, _⟩ => by
          show 0 ≤ b.val ∧ (b.val - 0) % (0 + 1) = 0 ∧ (b.val - 0) / (0 + 1) < B
          refine ⟨Nat.zero_le _, Nat.mod_one _, ?_⟩; simp
      | ⟨1, _⟩ => by
          show 0 ≤ c.val ∧ (c.val - 0) % (0 + 1) = 0 ∧ (c.val - 0) / (0 + 1) < C
          refine ⟨Nat.zero_le _, Nat.mod_one _, ?_⟩; simp
      | ⟨2, _⟩ => by
          show 1 ≤ u ∧ (u - 1) % (0 + 1) = 0 ∧ (u - 1) / (0 + 1) < 56
          refine ⟨hc.1.1, Nat.mod_one _, ?_⟩; simp; omega
      | ⟨3, _⟩ => by
          show 1 ≤ v ∧ (v - 1) % (0 + 1) = 0 ∧ (v - 1) / (0 + 1) < 56
          refine ⟨hc.2.1, Nat.mod_one _, ?_⟩; simp; omega)]
    refine congrArg x (funext fun a => Fin.ext ?_)
    match a with
    | ⟨0, _⟩ => show (b.val - 0) / (0 + 1) = b.val; simp
    | ⟨1, _⟩ => show (c.val - 0) / (0 + 1) = c.val; simp
    | ⟨2, _⟩ => show (u - 1) / (0 + 1) = u - 1; simp
    | ⟨3, _⟩ => show (v - 1) / (0 + 1) = v - 1; simp
  · rw [dif_neg hc, dif_neg]
    intro hin
    have h2 := hin ⟨2, by show (2 : Nat) < 4; omega⟩
    have h3 := hin ⟨3, by show (3 : Nat) < 4; omega⟩
    change 1 ≤ u ∧ (u - 1) % (0 + 1) = 0 ∧ (u - 1) / (0 + 1) < 56 at h2
    change 1 ≤ v ∧ (v - 1) % (0 + 1) = 0 ∧ (v - 1) / (0 + 1) < 56 at h3
    simp at h2 h3
    omega

end Taps

end
-- ==== Proof.KernelBlock.lean ====
/-
  What one grid point's body computes, entry by entry.

  The body holds a block of two images of 128 channels and a block of two sets of per-pixel 3×3 weights for 16
  channels.  It cuts the 128 channels into eight runs of 16; each run is bordered with zeros and filtered with the same
  weights (the nine products added from left to right onto zero), and the eight results are laid end to end along the
  channel axis.  So entry (b, c, r, q) of the result is the filter at channel c of the block, with the weights of
  channel c mod 16.
-/
import proofs.«110206_j20581483282807_1_alg».proof.Proof.Gen.KernelIdeal.Skeleton
import proofs.«110206_j20581483282807_1_alg».proof.Proof.LibTaps
import proofs.«110206_j20581483282807_1_alg».proof.Proof.LibBorder

set_option maxRecDepth 16384

noncomputable section

namespace Cert.KernelIdeal.Ska

open Cert.KernelIdeal Cert.KernelIdeal.Gen Idealize.ShloMosaic Idealize.ShloMosaic.ValueIdx Taps

/-- The start value of every sum, and the border value: the words the body writes for them. -/
abbrev zAcc : Ideal .f32 := Scalar.ofBits .f32 0x00000000#32
abbrev zBorder : Ideal .f32 := Scalar.sitofp .f32 (0#32 : BitVec 32)

theorem chan_slices (o : Nat) (ho : o + 16 ≤ 128) : S2x128x56x56.Slices ![0, o, 0, 0] S2x16x56x56 :=
  ⟨rfl, fun a => match a with
    | ⟨0, _⟩ => by show 0 + 2 ≤ 2; omega
    | ⟨1, _⟩ => by show o + 16 ≤ 128; omega
    | ⟨2, _⟩ => by show 0 + 56 ≤ 56; omega
    | ⟨3, _⟩ => by show 0 + 56 ≤ 56; omega⟩

/-- Channels o … o + 15 of the image block. -/
def chans (o : Nat) (ho : o + 16 ≤ 128) (x0 : Vec Ideal S2x128x56x56 .f32) : FVec Ideal S2x16x56x56 .f32 :=
  extractStridedSlice S2x16x56x56 ![0, o, 0, 0] x0 (chan_slices o ho)

/-- The filter of one run of 16 channels. -/
def group (o : Nat) (ho : o + 16 ≤ 128) (x0 : Vec Ideal S2x128x56x56 .f32) (x1 : Vec Ideal S2x16x9x56x56 .f32) :
    FVec Ideal S2x16x56x56 .f32 :=
  acc9 (B := 2) (C := 16) (broadcast S2x16x56x56 zAcc)
    (padded (B := 2) (C := 16) zBorder (chans o ho x0)
      Facts₀.concatenates_S2x16x1x56_S2x16x56x56_S2x16x57x56_d2 Facts₀.concatenates_S2x16x57x56_S2x16x1x56_S2x16x58x56_d2
      Facts₀.concatenates_S2x16x58x1_S2x16x58x56_S2x16x58x57_d3 Facts₀.concatenates_S2x16x58x57_S2x16x58x1_S2x16x58x58_d3) x1

/-! ## The body's pieces are these filters -/

theorem g0_eq (x0 : Vec Ideal S2x128x56x56 .f32) (x1 : Vec Ideal S2x16x9x56x56 .f32) :
    k0_pay3 (F := Ideal) x1 (k0_pay1 x0) (k0_pay2 x0 x1) = group 0 (by omega) x0 x1 := rfl

theorem g1_eq (x0 : Vec Ideal S2x128x56x56 .f32) (x1 : Vec Ideal S2x16x9x56x56 .f32) :
    k0_pay8 (F := Ideal) x1 (k0_pay4 x0) (k0_pay5 x0 x1) (k0_pay6 x0) (k0_pay7 x1) = group 16 (by omega) x0 x1 := rfl

theorem g2_eq (x0 : Vec Ideal S2x128x56x56 .f32) (x1 : Vec Ideal S2x16x9x56x56 .f32) :
    k0_pay12 (F := Ideal) x1 (k0_pay9 x0) (k0_pay10 x0 x1) (k0_pay11 x0 x1) = group 32 (by omega) x0 x1 := rfl

theorem g3_eq (x0 : Vec Ideal S2x128x56x56 .f32) (x1 : Vec Ideal S2x16x9x56x56 .f32) :
    k0_pay16 (F := Ideal) x1 (k0_pay14 x0 x1) (k0_pay15 x0) = group 48 (by omega) x0 x1 := rfl

theorem g4_eq (x0 : Vec Ideal S2x128x56x56 .f32) (x1 : Vec Ideal S2x16x9x56x56 .f32) :
    k0_pay21 (F := Ideal) (k0_pay18 x0 x1) (k0_pay19 x0) (k0_pay20 x1) = group 64 (by omega) x0 x1 := rfl

theorem g5_eq (x0 : Vec Ideal S2x128x56x56 .f32) (x1 : Vec Ideal S2x16x9x56x56 .f32) :
    k0_pay22 (F := Ideal) x0 x1 = group 80 (by omega) x0 x1 := rfl

theorem g6_eq (x0 : Vec Ideal S2x128x56x56 .f32) (x1 : Vec Ideal S2x16x9x56x56 .f32) :
    k0_pay23 (F := Ideal) x0 x1 = group 96 (by omega) x0 x1 := rfl

/-- The value the body stores. -/
def payload (x0 : Vec Ideal S2x128x56x56 .f32) (x1 : Vec Ideal S2x16x9x56x56 .f32) : FVec Ideal S2x128x56x56 .f32 :=
  k0_pay25 (F := Ideal) x1 (k0_pay3 x1 (k0_pay1 x0) (k0_pay2 x0 x1))
    (k0_pay8 x1 (k0_pay4 x0) (k0_pay5 x0 x1) (k0_pay6 x0) (k0_pay7 x1))
    (k0_pay12 x1 (k0_pay9 x0) (k0_pay10 x0 x1) (k0_pay11 x0 x1))
    (k0_pay16 x1 (k0_pay14 x0 x1) (k0_pay15 x0))
    (k0_pay21 (k0_pay18 x0 x1) (k0_pay19 x0) (k0_pay20 x1))
    (k0_pay22 x0 x1) (k0_pay23 x0 x1) (k0_pay24 x0) 0#32

/-- It is the eight filters laid end to end along the channel axis (the last one is computed beside the join). -/
theorem payload_eq (x0 : Vec Ideal S2x128x56x56 .f32) (x1 : Vec Ideal S2x16x9x56x56 .f32) :
    payload x0 x1 = concatenate S2x128x56x56 1
      (List.ofFn fun n : Fin 8 => (⟨S2x16x56x56, group (16 * n.val) (by omega) x0 x1⟩ : (s : Shape) × (s.Idx → Ideal .f32)))
      Facts₀.concatenates_S2x16x56x56_S2x16x56x56_S2x16x56x56_S2x16x56x56_S2x16x56x56_S2x16x56x56_S2x16x56x56_S2x16x56x56_S2x128x56x56_d1 := by
  unfold payload
  rw [g0_eq, g1_eq, g2_eq, g3_eq, g4_eq, g5_eq, g6_eq]
  rfl

/-! ## One filter at a pixel -/

/-- Inside a run, the bordered run is the bordered block at the run's channel. -/
theorem padAt_chans (z : Ideal .f32) (o : Nat) (ho : o + 16 ≤ 128) (x0 : Vec Ideal S2x128x56x56 .f32)
    (b : Fin 2) (cc : Fin 16) (c : Fin 128) (hc : c.val = o + cc.val) (u v : Nat) :
    padAt (B := 2) (C := 16) z (chans o ho x0) b cc u v = padAt (B := 2) (C := 128) z x0 b c u v := by
  unfold padAt
  by_cases h : (1 ≤ u ∧ u ≤ 56) ∧ (1 ≤ v ∧ v ≤ 56)
  · rw [dif_pos h, dif_pos h]
    unfold chans
    exact extractStridedSlice_apply _ x0 _ _ _ (fun a => match a with
      | ⟨0, _⟩ => by show b.val = 0 + b.val; omega
      | ⟨1, _⟩ => by show c.val = o + cc.val; exact hc
      | ⟨2, _⟩ => by show u - 1 = 0 + (u - 1); omega
      | ⟨3, _⟩ => by show v - 1 = 0 + (v - 1); omega)
  · rw [dif_neg h, dif_neg h]

theorem group_apply (o : Nat) (ho : o + 16 ≤ 128) (x0 : Vec Ideal S2x128x56x56 .f32) (x1 : Vec Ideal S2x16x9x56x56 .f32)
    (b : Fin 2) (cc : Fin 16) (r q : Fin 56) (c : Fin 128) (hc : c.val = o + cc.val) :
    group o ho x0 x1 (ix4 b cc r q)
      = nine zAcc (fun i j => padAt (B := 2) (C := 128) zBorder x0 b c (i + r.val) (j + q.val))
          (fun k hk => x1 (ix5 b cc ⟨k, hk⟩ r q)) := by
  unfold group
  exact acc9_apply (B := 2) (C := 16) _ _ x1 b cc r q (fun u v => padAt (B := 2) (C := 128) zBorder x0 b c u v)
    (fun u v hu hv => (padded_apply (B := 2) (C := 16) zBorder (chans o ho x0) _ _ _ _ b cc u v hu hv).trans
      (padAt_chans zBorder o ho x0 b cc c hc u v))

/-! ## The stored value at a pixel -/

theorem payload_apply (x0 : Vec Ideal S2x128x56x56 .f32) (x1 : Vec Ideal S2x16x9x56x56 .f32)
    (b : Fin 2) (c : Fin 128) (r q : Fin 56) :
    payload x0 x1 (ix4 b c r q)
      = nine zAcc (fun i j => padAt (B := 2) (C := 128) zBorder x0 b c (i + r.val) (j + q.val))
          (fun k hk => x1 (ix5 b ⟨c.val % 16, Nat.mod_lt _ (by omega)⟩ ⟨k, hk⟩ r q)) := by
  rw [payload_eq]
  refine (concatenate_ofFn_apply (t := S2x128x56x56) (s₁ := S2x16x56x56) (1 : Fin 4)
    (fun n : Fin 8 => group (16 * n.val) (by omega) x0 x1) _ rfl 16 rfl (ix4 b c r q) ⟨c.val / 16, by omega⟩ rfl
    (ix4 b ⟨c.val % 16, Nat.mod_lt _ (by omega)⟩ r q) rfl
    (fun a => match a with
      | ⟨0, _⟩ => fun _ => rfl | ⟨2, _⟩ => fun _ => rfl | ⟨3, _⟩ => fun _ => rfl
      | ⟨1, _⟩ => fun hne => absurd rfl hne)).trans ?_
  exact group_apply _ _ x0 x1 b ⟨c.val % 16, Nat.mod_lt _ (by omega)⟩ r q c
    (by show c.val = 16 * (c.val / 16) + c.val % 16; omega)

end Cert.KernelIdeal.Ska

end
-- ==== Proof.LibSka.lean ====
/-
  The filtered batch as one function of the image batch and the weights: channel c of every image is filtered
  with the weights of channel c mod 16 (the 16 weight channels repeat along the image's channels).
-/
import proofs.«110206_j20581483282807_1_alg».proof.Proof.LibTaps

noncomputable section

namespace Taps

open Idealize.ShloMosaic Idealize.ShloMosaic.ValueIdx

variable {B C : Nat}

/-- The result at a pixel: the nine products of the zero-bordered image's 3×3 window with that pixel's weights,
    added from left to right onto the start value. -/
def skaAt (zA zB : EReal) (x : (Img B C).Idx → EReal) (w : (Wts B 16).Idx → EReal)
    (b : Fin B) (c : Fin C) (r q : Fin 56) : EReal :=
  nine zA (fun i j => padAt zB x b c (i + r.val) (j + q.val))
    (fun k hk => w (ix5 b ⟨c.val % 16, Nat.mod_lt _ (by omega)⟩ ⟨k, hk⟩ r q))

/-- The whole result. -/
def ska (zA zB : EReal) (x : (Img B C).Idx → EReal) (w : (Wts B 16).Idx → EReal) : (Img B C).Idx → EReal :=
  fun idx => skaAt zA zB x w (idx 0) (idx 1) (idx 2) (idx 3)

theorem ska_ix4 (zA zB : EReal) (x : (Img B C).Idx → EReal) (w : (Wts B 16).Idx → EReal)
    (b : Fin B) (c : Fin C) (r q : Fin 56) : ska zA zB x w (ix4 b c r q) = skaAt zA zB x w b c r q := rfl

/-- The result at a pixel depends on the image only through its bordered entries in that channel, and on the
    weights only through that pixel's nine. -/
theorem skaAt_congr (zA zB : EReal) {B' C' : Nat} (x : (Img B C).Idx → EReal) (w : (Wts B 16).Idx → EReal)
    (x' : (Img B' C').Idx → EReal) (w' : (Wts B' 16).Idx → EReal)
    (b : Fin B) (c : Fin C) (b' : Fin B') (c' : Fin C') (r q : Fin 56) (hc : c.val % 16 = c'.val % 16)
    (hx : ∀ r' q' : Fin 56, x (ix4 b c r' q') = x' (ix4 b' c' r' q'))
    (hw : ∀ (cc : Fin 16) (k : Fin 9), w (ix5 b cc k r q) = w' (ix5 b' cc k r q)) :
    skaAt zA zB x w b c r q = skaAt zA zB x' w' b' c' r q := by
  have hp : ∀ u v : Nat, padAt zB x b c u v = padAt zB x' b' c' u v := fun u v => by
    unfold padAt
    by_cases h : (1 ≤ u ∧ u ≤ 56) ∧ (1 ≤ v ∧ v ≤ 56)
    · rw [dif_pos h, dif_pos h]; exact hx _ _
    · rw [dif_neg h, dif_neg h]
  have hcc : (⟨c.val % 16, Nat.mod_lt _ (by omega)⟩ : Fin 16) = ⟨c'.val % 16, Nat.mod_lt _ (by omega)⟩ := Fin.ext hc
  unfold skaAt
  simp only [hp, hw, hcc]

end Taps

end
-- ==== Proof.KernelValue.lean ====
/-
  From the grid points' blocks to the whole result array.

  Grid point t holds images 2t and 2t + 1 of the batch and their weights, all channels and pixels.  What it writes back
  is therefore rows 2t and 2t + 1 of the filtered batch (the filter never looks across images), the eight points' blocks
  tile the result, and the result array ends as the filtered batch.
-/
import proofs.«110206_j20581483282807_1_alg».proof.Proof.Gen.KernelIdeal.Value
import proofs.«110206_j20581483282807_1_alg».proof.Proof.KernelBlock
import proofs.«110206_j20581483282807_1_alg».proof.Proof.LibSka

set_option maxRecDepth 16384

noncomputable section

namespace Cert.KernelIdeal.Ska

open Cert.KernelIdeal Cert.KernelIdeal.Gen Idealize.ShloMosaic Idealize.ShloMosaic.TcCoe Idealize.SL.Sem
open Idealize.ShloMosaic.ValueIdx Taps
open Idealize.ShloMosaic.Pipeline (Dat)

variable (m : (ℓ : Loc nD τ sig) → Buf (Elt Ideal) ℓ) (ρ : Dev nD → PrngReg)

theorem hz4 : (![0, 0, 0, 0] : Fin 4 → Nat) = fun _ => 0 := funext fun a => by fin_cases a <;> rfl
theorem hz5 : (![0, 0, 0, 0, 0] : Fin 5 → Nat) = fun _ => 0 := funext fun a => by fin_cases a <;> rfl

/-- The filtered batch of the argument arrays. -/
def result (c : Dev nD) : S16x128x56x56.Idx → EReal :=
  ska (B := 16) (C := 128) zAcc zBorder (m ((c : Thread nD τ).loc main_arg0) : S16x128x56x56.Idx → EReal)
    (m ((c : Thread nD τ).loc main_arg1) : S16x16x9x56x56.Idx → EReal)

/-- Image b of point n's block is image 2n + b of the batch. -/
abbrev up (n : Nat) (hn : n < 8) (b : Fin 2) : Fin 16 := ⟨2 * n + b.val, by omega⟩

/-- Every window's block index at point t: t on the batch axis, 0 on the others. -/
theorem idx_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 5) = t.val ∧ win0_1.index t (1 : Fin 5) = 0 ∧ win0_1.index t (2 : Fin 5) = 0
    ∧ win0_1.index t (3 : Fin 5) = 0 ∧ win0_1.index t (4 : Fin 5) = 0
    ∧ win0_2.index t (0 : Fin 4) = t.val ∧ win0_2.index t (1 : Fin 4) = 0 ∧ win0_2.index t (2 : Fin 4) = 0
    ∧ win0_2.index t (3 : Fin 4) = 0 :=
  (by decide +kernel : ∀ t : Fin grid0.N, _)

/-- A block of two images that are images 2n, 2n + 1 of a batch, with their weights: the body's value on it is
    the batch's filter at those images. -/
theorem point_eq (X : S16x128x56x56.Idx → EReal) (W : S16x16x9x56x56.Idx → EReal)
    (x0 : Vec Ideal S2x128x56x56 .f32) (x1 : Vec Ideal S2x16x9x56x56 .f32) (n : Nat) (hn : n < 8)
    (hx0 : ∀ (b : Fin 2) (c : Fin 128) (r q : Fin 56), x0 (ix4 b c r q) = X (ix4 (up n hn b) c r q))
    (hx1 : ∀ (b : Fin 2) (c : Fin 16) (k : Fin 9) (r q : Fin 56), x1 (ix5 b c k r q) = W (ix5 (up n hn b) c k r q))
    (j : S2x128x56x56.Idx) :
    payload x0 x1 j = ska (B := 16) (C := 128) zAcc zBorder X W (ix4 (up n hn (j 0)) (j 1) (j 2) (j 3)) := by
  obtain ⟨b, c, r, q, rfl⟩ : ∃ (b : Fin 2) (c : Fin 128) (r q : Fin 56), j = ix4 b c r q :=
    ⟨j 0, j 1, j 2, j 3, eq_ix4 j⟩
  rw [payload_apply]
  exact skaAt_congr (B := 2) (C := 128) (B' := 16) (C' := 128) zAcc zBorder x0 x1 X W b c (up n hn b) c r q rfl
    (fun r' q' => hx0 b c r' q') (fun cc k => hx1 b cc k r q)

/-- What point t writes back is block t of the filtered batch. -/
theorem flushed_eq (c : Dev nD) (t : Fin cfg0.N) :
    (dats m 0 c).flushed 2 t = ((cfg0.win 2).blk t).view.read (Elt Ideal) (result m c) := by
  show (cfg0.win 2).cut (grid0.coords t) ((dats m 0 c).after 2 t) = _
  rw [after0_2]
  unfold out0_2
  rw [View.canon_unit_zero hz4]
  simp only [View.ld_unit_zero (S := S2x128x56x56) hz4, View.ld_unit_zero (S := S2x16x9x56x56) hz5]
  obtain ⟨e00, e01, e02, e03, e10, e11, e12, e13, e14, e20, e21, e22, e23⟩ := idx_facts t
  have ht : t.val < 8 := by have h := t.isLt; have hN : cfg0.N = 8 := N_0; omega
  funext j
  show payload (iblk m c 0 t) (iblk m c 1 t) j = result m c (((cfg0.win 2).blk t).view.emb j)
  have hemb : ((cfg0.win 2).blk t).view.emb j = ix4 (up t.val ht (j 0)) (j 1) (j 2) (j 3) := by
    funext a; apply Fin.ext
    match a with
    | ⟨0, _⟩ => show win0_2.index t (0 : Fin 4) * 2 + 1 * (j 0).val = 2 * t.val + (j 0).val; omega
    | ⟨1, _⟩ => show win0_2.index t (1 : Fin 4) * 128 + 1 * (j 1).val = (j 1).val; omega
    | ⟨2, _⟩ => show win0_2.index t (2 : Fin 4) * 56 + 1 * (j 2).val = (j 2).val; omega
    | ⟨3, _⟩ => show win0_2.index t (3 : Fin 4) * 56 + 1 * (j 3).val = (j 3).val; omega
  rw [hemb]
  refine point_eq _ _ (iblk m c 0 t) (iblk m c 1 t) t.val ht ?_ ?_ j
  · intro b c' r q
    show V m c main_arg0 (((cfg0.win 0).blk t).view.emb (ix4 b c' r q)) = V m c main_arg0 (ix4 (up t.val ht b) c' r q)
    refine congrArg _ (funext fun a => Fin.ext ?_)
    match a with
    | ⟨0, _⟩ => show win0_0.index t (0 : Fin 4) * 2 + 1 * b.val = 2 * t.val + b.val; omega
    | ⟨1, _⟩ => show win0_0.index t (1 : Fin 4) * 128 + 1 * c'.val = c'.val; omega
    | ⟨2, _⟩ => show win0_0.index t (2 : Fin 4) * 56 + 1 * r.val = r.val; omega
    | ⟨3, _⟩ => show win0_0.index t (3 : Fin 4) * 56 + 1 * q.val = q.val; omega
  · intro b c' k r q
    show V m c main_arg1 (((cfg0.win 1).blk t).view.emb (ix5 b c' k r q)) = V m c main_arg1 (ix5 (up t.val ht b) c' k r q)
    refine congrArg _ (funext fun a => Fin.ext ?_)
    match a with
    | ⟨0, _⟩ => show win0_1.index t (0 : Fin 5) * 2 + 1 * b.val = 2 * t.val + b.val; omega
    | ⟨1, _⟩ => show win0_1.index t (1 : Fin 5) * 16 + 1 * c'.val = c'.val; omega
    | ⟨2, _⟩ => show win0_1.index t (2 : Fin 5) * 9 + 1 * k.val = k.val; omega
    | ⟨3, _⟩ => show win0_1.index t (3 : Fin 5) * 56 + 1 * r.val = r.val; omega
    | ⟨4, _⟩ => show win0_1.index t (4 : Fin 5) * 56 + 1 * q.val = q.val; omega

/-- An index of the result is in point t's block iff each coordinate is in the block's range on its axis. -/
theorem mem_blk (t : Fin cfg0.N) (i : S16x128x56x56.Idx) :
    i ∈ ((cfg0.win 2).blk t).view.set ↔ ∀ a : Fin 4, win0_2.index t a * S2x128x56x56.size a ≤ (i a).val
      ∧ (i a).val < win0_2.index t a * S2x128x56x56.size a + S2x128x56x56.size a := by
  show i ∈ ((View.whole main_v0).slice (win0_2.rect t)).set ↔ _
  rw [View.set_slice_whole, Rect.mem_set_unit]
  exact Iff.rfl

/-- Image i₀ of the result is written by point i₀ / 2. -/
theorem cover (i : S16x128x56x56.Idx) :
    ∃ t : Fin cfg0.N, (cfg0.win 2).flush t = true ∧ i ∈ ((cfg0.win 2).blk t).view.set := by
  have hi0 : (i 0).val < 16 := (i 0).isLt
  have hi1 : (i 1).val < 128 := (i 1).isLt
  have hi2 : (i 2).val < 56 := (i 2).isLt
  have hi3 : (i 3).val < 56 := (i 3).isLt
  have hN : cfg0.N = 8 := N_0
  refine ⟨⟨(i 0).val / 2, by omega⟩, flush0_2 _, ?_⟩
  obtain ⟨e00, e01, e02, e03, e10, e11, e12, e13, e14, e20, e21, e22, e23⟩ := idx_facts ⟨(i 0).val / 2, by omega⟩
  rw [mem_blk]
  intro a
  match a with
  | ⟨0, _⟩ =>
    show win0_2.index _ (0 : Fin 4) * 2 ≤ (i 0).val ∧ (i 0).val < win0_2.index _ (0 : Fin 4) * 2 + 2
    rw [e20]; show (i 0).val / 2 * 2 ≤ (i 0).val ∧ (i 0).val < (i 0).val / 2 * 2 + 2; omega
  | ⟨1, _⟩ =>
    show win0_2.index _ (1 : Fin 4) * 128 ≤ (i 1).val ∧ (i 1).val < win0_2.index _ (1 : Fin 4) * 128 + 128
    rw [e21]; omega
  | ⟨2, _⟩ =>
    show win0_2.index _ (2 : Fin 4) * 56 ≤ (i 2).val ∧ (i 2).val < win0_2.index _ (2 : Fin 4) * 56 + 56
    rw [e22]; omega
  | ⟨3, _⟩ =>
    show win0_2.index _ (3 : Fin 4) * 56 ≤ (i 3).val ∧ (i 3).val < win0_2.index _ (3 : Fin 4) * 56 + 56
    rw [e23]; omega

/-- The result array after the run. -/
theorem final (c : Dev nD) : (dats m 0 c).arrAt 2 cfg0.N = result m c :=
  (dats m 0 c).arrAt_eq_of_cover 2 (result m c) (fun t _ => flushed_eq m c t) (fun i => cover i)

/-- The run: the result array ends as the filtered batch of the argument arrays, which are unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Ska

end
-- ==== Proof.LibTile.lean ====
/-
  Weights for 16 channels repeated eight times along the channel axis, read at an entry.

  An array program tiles [16, 16, 9, 56, 56] weights to [16, 128, 9, 56, 56] by recasting them with a unit axis in
  front of every axis, spreading the unit axis in front of the channels to extent 8, and recasting to five axes.
  Row-major order makes channel c of the result channel c mod 16 of the operand (and c / 16 the copy's number).
-/
import Idealize.ShloMosaic.Lib.ValueIdx
import Idealize.ShloMosaic.Lib.Pipeline.Value

noncomputable section

namespace Taps

open Idealize.ShloMosaic Idealize.ShloMosaic.ValueIdx

/-- Rank 10: the row-major position as one sum of products. -/
theorem rowMajor_val_ten {d : Fin 10 → Nat} (i : (⟨10, d⟩ : Shape).Idx) :
    ((⟨10, d⟩ : Shape).rowMajor i).val
      = (((((((((i 0).val * d 1 + (i 1).val) * d 2 + (i 2).val) * d 3 + (i 3).val) * d 4 + (i 4).val) * d 5 + (i 5).val)
          * d 6 + (i 6).val) * d 7 + (i 7).val) * d 8 + (i 8).val) * d 9 + (i 9).val := by
  show (Shape.rowMajorPi d i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val,
    Shape.rowMajorPi_succ_val, Shape.rowMajorPi_succ_val]
  simp [Shape.rowMajorPi_zero, Fin.prod_univ_succ, Nat.add_mul, Nat.mul_assoc, Nat.add_assoc]

/-- The weights with a unit axis in front of every axis; G = 1 before the spread, G = 8 after it. -/
abbrev Split (G : Nat) : Shape := ⟨10, ![1, 16, G, 16, 1, 9, 1, 56, 1, 56]⟩

/-- An index of the split weights from the coordinates that vary. -/
abbrev ixS {G : Nat} (b : Fin 16) (g : Fin G) (c : Fin 16) (k : Fin 9) (r q : Fin 56) : (Split G).Idx :=
  fun a => match a with
    | ⟨0, _⟩ => (⟨0, Nat.one_pos⟩ : Fin 1) | ⟨1, _⟩ => b | ⟨2, _⟩ => g | ⟨3, _⟩ => c
    | ⟨4, _⟩ => (⟨0, Nat.one_pos⟩ : Fin 1) | ⟨5, _⟩ => k | ⟨6, _⟩ => (⟨0, Nat.one_pos⟩ : Fin 1) | ⟨7, _⟩ => r
    | ⟨8, _⟩ => (⟨0, Nat.one_pos⟩ : Fin 1) | ⟨9, _⟩ => q

abbrev Wts16 : Shape := ⟨5, ![16, 16, 9, 56, 56]⟩
abbrev Wts128 : Shape := ⟨5, ![16, 128, 9, 56, 56]⟩

/-- Channel c of the tiled weights is channel c mod 16 of the weights. -/
theorem tiled_apply {α : Type} (w : Wts16.Idx → α) (h0 : Wts16.ShapeCasts (Split 1))
    (hb : (Split 1).BroadcastsInDim (Split 8) (![0, 1, 2, 3, 4, 5, 6, 7, 8, 9] : Fin 10 → Fin (Split 8).rank))
    (h2 : (Split 8).ShapeCasts Wts128) (b : Fin 16) (c : Fin 128) (k : Fin 9) (r q : Fin 56) :
    shapeCast Wts128 (broadcastInDim (Split 8) ![0, 1, 2, 3, 4, 5, 6, 7, 8, 9] hb (shapeCast (Split 1) w h0)) h2
        (ix5 b c k r q)
      = w (ix5 b ⟨c.val % 16, Nat.mod_lt _ (by omega)⟩ k r q) := by
  refine (shapeCast_apply _ h2 (ix5 b c k r q)
    (ixS b ⟨c.val / 16, by omega⟩ ⟨c.val % 16, Nat.mod_lt _ (by omega)⟩ k r q) ?_).trans ?_
  · rw [rowMajor_val_ten, Shape.rowMajor_val_five]
    have e : (((((((((0 : Nat) * 16 + b.val) * 8 + c.val / 16) * 16 + c.val % 16) * 1 + 0) * 9 + k.val) * 1 + 0) * 56 + r.val) * 1 + 0)
        * 56 + q.val = (((b.val * 128 + c.val) * 9 + k.val) * 56 + r.val) * 56 + q.val := by omega
    exact e
  refine (broadcastInDim_apply _ hb _ _
    (ixS b (⟨0, Nat.one_pos⟩ : Fin 1) ⟨c.val % 16, Nat.mod_lt _ (by omega)⟩ k r q) (fun a => match a with
    | ⟨0, _⟩ => by show 0 = if (1 : Nat) = 1 then 0 else _; rw [if_pos rfl]
    | ⟨1, _⟩ => by show b.val = if (16 : Nat) = 1 then 0 else b.val; rw [if_neg (by decide)]
    | ⟨2, _⟩ => by show 0 = if (1 : Nat) = 1 then 0 else _; rw [if_pos rfl]
    | ⟨3, _⟩ => by show c.val % 16 = if (16 : Nat) = 1 then 0 else c.val % 16; rw [if_neg (by decide)]
    | ⟨4, _⟩ => by show 0 = if (1 : Nat) = 1 then 0 else _; rw [if_pos rfl]
    | ⟨5, _⟩ => by show k.val = if (9 : Nat) = 1 then 0 else k.val; rw [if_neg (by decide)]
    | ⟨6, _⟩ => by show 0 = if (1 : Nat) = 1 then 0 else _; rw [if_pos rfl]
    | ⟨7, _⟩ => by show r.val = if (56 : Nat) = 1 then 0 else r.val; rw [if_neg (by decide)]
    | ⟨8, _⟩ => by show 0 = if (1 : Nat) = 1 then 0 else _; rw [if_pos rfl]
    | ⟨9, _⟩ => by show q.val = if (56 : Nat) = 1 then 0 else q.val; rw [if_neg (by decide)])).trans ?_
  refine shapeCast_apply _ h0 _ (ix5 b ⟨c.val % 16, Nat.mod_lt _ (by omega)⟩ k r q) ?_
  rw [rowMajor_val_ten, Shape.rowMajor_val_five]
  have e : (((b.val * 16 + c.val % 16) * 9 + k.val) * 56 + r.val) * 56 + q.val
    = (((((((((0 : Nat) * 16 + b.val) * 1 + 0) * 16 + c.val % 16) * 1 + 0) * 9 + k.val) * 1 + 0) * 56 + r.val) * 1 + 0)
        * 56 + q.val := by omega
  exact e

end Taps

end
-- ==== Proof.ReferenceValue.lean ====
/-
  The reference, entry by entry.

  The host program tiles the weights eight times along the channel axis, borders the whole batch with zeros and adds
  the nine products of windows and weights from left to right onto zero: the same filter, for all 128 channels at once,
  so channel c meets the weights of channel c mod 16.
-/
import proofs.«110206_j20581483282807_1_alg».proof.Proof.Gen.ReferenceIdeal.Read
import proofs.«110206_j20581483282807_1_alg».proof.Proof.LibTaps
import proofs.«110206_j20581483282807_1_alg».proof.Proof.LibBorder
import proofs.«110206_j20581483282807_1_alg».proof.Proof.LibTile
import proofs.«110206_j20581483282807_1_alg».proof.Proof.LibSka

set_option maxRecDepth 16384

noncomputable section

namespace Cert.ReferenceIdeal.Ska

open Cert.ReferenceIdeal Cert.ReferenceIdeal.Gen Cert.ReferenceIdeal.Read Idealize.ShloMosaic Idealize.ShloMosaic.ValueIdx Taps

/-- The start value of the sums and the border value, as the host writes them. -/
abbrev zAcc : Ideal .f32 := FloatOps.ofBits .f32 0x00000000#32
abbrev zBorder : Ideal .f32 := FloatOps.sitofp .f32 (0#32 : BitVec 32)

/-- The program's last value is the nine product images added onto its zero image. -/
theorem ref_eq (x0 : (⟨S16x128x56x56, .f32⟩ : BufTy).Contents (Elt Ideal))
    (x1 : (⟨S16x16x9x56x56, .f32⟩ : BufTy).Contents (Elt Ideal)) :
    val_main_v49 (F := Ideal) x0 x1
      = acc9 (B := 16) (C := 128) (val_main_v4 (F := Ideal)) (val_main_v3 (F := Ideal) x0) (val_main_v2 (F := Ideal) x1) := rfl

/-- The bordered batch at an entry. -/
theorem bordered_apply (x0 : (⟨S16x128x56x56, .f32⟩ : BufTy).Contents (Elt Ideal)) (b : Fin 16) (c : Fin 128)
    (u v : Nat) (hu : u < 58) (hv : v < 58) :
    val_main_v3 (F := Ideal) x0 (ix4 b c ⟨u, hu⟩ ⟨v, hv⟩) = padAt (B := 16) (C := 128) zBorder x0 b c u v := by
  unfold val_main_v3
  exact hostpad_apply (B := 16) (C := 128) x0 (val_main_call0_v0 (F := Ideal)) _ _ b c u v hu hv

/-- The tiled weights at an entry. -/
theorem tiled_weights_apply (x1 : (⟨S16x16x9x56x56, .f32⟩ : BufTy).Contents (Elt Ideal)) (b : Fin 16) (c : Fin 128)
    (k : Fin 9) (r q : Fin 56) :
    val_main_v2 (F := Ideal) x1 (ix5 b c k r q) = x1 (ix5 b ⟨c.val % 16, Nat.mod_lt _ (by omega)⟩ k r q) := by
  unfold val_main_v2 val_main_v1 val_main_v0
  exact tiled_apply x1 _ _ _ b c k r q

/-- The reference's result is the filtered batch. -/
theorem ref_apply (x0 : (⟨S16x128x56x56, .f32⟩ : BufTy).Contents (Elt Ideal))
    (x1 : (⟨S16x16x9x56x56, .f32⟩ : BufTy).Contents (Elt Ideal)) :
    val_main_v49 (F := Ideal) x0 x1 = ska (B := 16) (C := 128) zAcc zBorder x0 x1 := by
  funext j
  obtain ⟨b, c, r, q, rfl⟩ : ∃ (b : Fin 16) (c : Fin 128) (r q : Fin 56), j = ix4 b c r q :=
    ⟨j 0, j 1, j 2, j 3, eq_ix4 j⟩
  rw [ref_eq, ska_ix4,
    acc9_apply (B := 16) (C := 128) _ _ _ b c r q (fun u v => padAt (B := 16) (C := 128) zBorder x0 b c u v)
      (fun u v hu hv => bordered_apply x0 b c u v hu hv)]
  unfold skaAt
  simp only [tiled_weights_apply]
  rfl

end Cert.ReferenceIdeal.Ska

end
-- ==== Proof.lean ====
/-
  A per-pixel 3×3 filter with weights shared by every sixteenth channel, computed block by block on the grid and
  all at once on the host: the two results are equal entry by entry on the extended reals.

  Both programs border every image with zeros and, at every pixel, add the nine products of the bordered image's
  3×3 window with that pixel's nine weights, from left to right, onto zero.  The kernel takes two images at a time,
  cuts their 128 channels into eight runs of 16 and filters every run with the one set of 16 weight channels; the host
  repeats the 16 weight channels eight times and filters all 128 channels together.  Channel c meets the weights of
  channel c mod 16 either way, and the nine products are added in the same order, so no law of arithmetic is needed
  and the inputs' finiteness is not used.

  Proof/LibTaps, LibBorder, LibTile, LibSka: the filter, the two ways of bordering, the tiling, and the filtered batch
  as one function.  Proof/KernelBlock: one grid point's value.  Proof/KernelValue: the result array from the points'
  blocks.  Proof/ReferenceValue: the host's value.  Here: the five claims.
-/
import proofs.«110206_j20581483282807_1_alg».proof.Defs
import proofs.«110206_j20581483282807_1_alg».proof.Proof.Gen.Kernel
import proofs.«110206_j20581483282807_1_alg».proof.Proof.Gen.Kernel.Skeleton
import proofs.«110206_j20581483282807_1_alg».proof.Proof.Gen.Kernel.Launch
import proofs.«110206_j20581483282807_1_alg».proof.Proof.Gen.Kernel.Points
import proofs.«110206_j20581483282807_1_alg».proof.Proof.Gen.Kernel.Frame
import proofs.«110206_j20581483282807_1_alg».proof.Proof.Gen.KernelIdeal
import proofs.«110206_j20581483282807_1_alg».proof.Proof.Gen.KernelIdeal.Skeleton
import proofs.«110206_j20581483282807_1_alg».proof.Proof.Gen.KernelIdeal.Launch
import proofs.«110206_j20581483282807_1_alg».proof.Proof.Gen.KernelIdeal.Points
import proofs.«110206_j20581483282807_1_alg».proof.Proof.Gen.KernelIdeal.Frame
import proofs.«110206_j20581483282807_1_alg».proof.Proof.Gen.ReferenceIdeal
import proofs.«110206_j20581483282807_1_alg».proof.Proof.Gen.Pre_finite_inputs
import proofs.«110206_j20581483282807_1_alg».proof.Proof.Gen.KernelIdeal.Value
import proofs.«110206_j20581483282807_1_alg».proof.Proof.Gen.ReferenceIdeal.Run
import proofs.«110206_j20581483282807_1_alg».proof.Proof.Gen.ReferenceIdeal.Read
import proofs.«110206_j20581483282807_1_alg».proof.Proof.KernelValue
import proofs.«110206_j20581483282807_1_alg».proof.Proof.ReferenceValue
import Idealize.ShloMosaic.Adequacy
import Idealize.ShloMosaic.Init

noncomputable section

namespace Cert.Proof

open Idealize.ShloMosaic Idealize.SL.Sem

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The host program's run, its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the filtered batch of their (equal) arguments. -/
theorem algebraic : Cert.algebraic_KernelIdeal_ReferenceIdeal := by
  intro m ρ m' ρ' _ hagree
  refine ⟨fun c => Cert.KernelIdeal.Ska.result m c, Cert.KernelIdeal.Ska.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v49_eq, Cert.ReferenceIdeal.Ska.ref_apply, (hagree c).1, (hagree c).2]
  rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
